-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x128 : Shape := ⟨3, ![16384, 32, 128]⟩
abbrev S32x16384 : Shape := ⟨2, ![32, 16384]⟩
abbrev S_ : Shape := ⟨0, ![]⟩

class Facts : Prop where
  bcast_S_S16384x32x128 : S_.BroadcastsInDim S16384x32x128 (![] : Fin 0 → Fin S16384x32x128.rank)
  reducesTo_S16384x32x128_S_d0_1_2 : S16384x32x128.ReducesTo [0, 1, 2] S_
  h_S_ : 0 < S_.numel
  bcast_S_S32x16384 : S_.BroadcastsInDim S32x16384 (![] : Fin 0 → Fin S32x16384.rank)
  reducesTo_S32x16384_S_d0_1 : S32x16384.ReducesTo [0, 1] S_

variable [Facts]

def fn_part1 {F : FTy → Type} [FloatOps F] (main_v13 : IVec S_ 1) (main_v16 : IVec S32x16384 1) : IVec S_ 1 :=
  let main_c_5 : IVec S_ 1 := constantI S_ 1 1#1
  let main_v17 : IVec S_ 1 := (fun x v => Host.reduce IntOp.andi x v reducesTo_S32x16384_S_d0_1 h_S_) main_v16 main_c_5
  let main_v18 : IVec S_ 1 := andi main_v13 main_v17
  main_v18

def fn {F : FTy → Type} [FloatOps F] (main_arg0 : FVec F S16384x32x128 .f32) (main_arg1 : FVec F S32x16384 .f32) (main_arg2 : FVec F S16384x32x128 .f32) (main_arg3 : FVec F S32x16384 .f32) : IVec S_ 1 :=
  let main_v0 : FVec F S16384x32x128 .f32 := Host.absf main_arg0
  let main_cst : FVec F S_ .f32 := constant S_ .f32 0x7F800000#32
  let main_v1 : FVec F S16384x32x128 .f32 := broadcastInDim S16384x32x128 ![] bcast_S_S16384x32x128 main_cst
  let main_v2 : IVec S16384x32x128 1 := cmpf .olt main_v0 main_v1
  let main_c : IVec S_ 1 := constantI S_ 1 1#1
  let main_v3 : IVec S_ 1 := (fun x v => Host.reduce IntOp.andi x v reducesTo_S16384x32x128_S_d0_1_2 h_S_) main_v2 main_c
  let main_v4 : FVec F S32x16384 .f32 := Host.absf main_arg1
  let main_cst_0 : FVec F S_ .f32 := constant S_ .f32 0x7F800000#32
  let main_v5 : FVec F S32x16384 .f32 := broadcastInDim S32x16384 ![] bcast_S_S32x16384 main_cst_0
  let main_v6 : IVec S32x16384 1 := cmpf .olt main_v4 main_v5
  let main_c_1 : IVec S_ 1 := constantI S_ 1 1#1
  let main_v7 : IVec S_ 1 := (fun x v => Host.reduce IntOp.andi x v reducesTo_S32x16384_S_d0_1 h_S_) main_v6 main_c_1
  let main_v8 : IVec S_ 1 := andi main_v3 main_v7
  let main_v9 : FVec F S16384x32x128 .f32 := Host.absf main_arg2
  let main_cst_2 : FVec F S_ .f32 := constant S_ .f32 0x7F800000#32
  let main_v10 : FVec F S16384x32x128 .f32 := broadcastInDim S16384x32x128 ![] bcast_S_S16384x32x128 main_cst_2
  let main_v11 : IVec S16384x32x128 1 := cmpf .olt main_v9 main_v10
  let main_c_3 : IVec S_ 1 := constantI S_ 1 1#1
  let main_v12 : IVec S_ 1 := (fun x v => Host.reduce IntOp.andi x v reducesTo_S16384x32x128_S_d0_1_2 h_S_) main_v11 main_c_3
  let main_v13 : IVec S_ 1 := andi main_v8 main_v12
  let main_v14 : FVec F S32x16384 .f32 := Host.absf main_arg3
  let main_cst_4 : FVec F S_ .f32 := constant S_ .f32 0x7F800000#32
  let main_v15 : FVec F S32x16384 .f32 := broadcastInDim S32x16384 ![] bcast_S_S32x16384 main_cst_4
  let main_v16 : IVec S32x16384 1 := cmpf .olt main_v14 main_v15
  fn_part1 (F := F) main_v13 main_v16
-- ==== Kernel.lean ====
abbrev S16384x32x128 : Shape := ⟨3, ![16384, 32, 128]⟩
abbrev S32x16384 : Shape := ⟨2, ![32, 16384]⟩
abbrev S256x32x128 : Shape := ⟨3, ![256, 32, 128]⟩
abbrev S32x256 : Shape := ⟨2, ![32, 256]⟩
abbrev S256x32 : Shape := ⟨2, ![256, 32]⟩
abbrev S256x32x1 : Shape := ⟨3, ![256, 32, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x32x128, .f32⟩
  | .hbm, ⟨1, _⟩ => ⟨S32x16384, .f32⟩
  | .hbm, ⟨2, _⟩ => ⟨S16384x32x128, .f32⟩
  | .hbm, ⟨3, _⟩ => ⟨S32x16384, .f32⟩
  | .hbm, ⟨4, _⟩ => ⟨S16384x32x128, .f32⟩
  | .hbm, ⟨5, _⟩ => ⟨S32x16384, .f32⟩
  | .local _ .vmem, ⟨0, _⟩ => ⟨S256x32x128, .f32⟩
  | .local _ .vmem, ⟨1, _⟩ => ⟨S256x32x128, .f32⟩
  | .local _ .vmem, ⟨2, _⟩ => ⟨S32x16384, .f32⟩
  | .local _ .vmem, ⟨3, _⟩ => ⟨S256x32x128, .f32⟩
  | .local _ .vmem, ⟨4, _⟩ => ⟨S256x32x128, .f32⟩
  | .local _ .vmem, ⟨5, _⟩ => ⟨S32x16384, .f32⟩
  | .local _ .vmem, ⟨6, _⟩ => ⟨S256x32x128, .f32⟩
  | .local _ .vmem, ⟨7, _⟩ => ⟨S256x32x128, .f32⟩
  | .local _ .vmem, ⟨8, _⟩ => ⟨S32x256, .f32⟩
  | .local _ .vmem, ⟨9, _⟩ => ⟨S32x256, .f32⟩
  | _, _ => ⟨S16384x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0 : Index := 0#32
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  ![0, v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  h_S32x256 : 0 < S32x256.numel
  inb_S32x256_S32x256_0_0 : ∀ a, (![0, 0] : Fin 2 → Nat) a + S32x256.size a ≤ S32x256.size a
  transposes_S32x256_p1_0_S256x32 : S32x256.Transposes [1, 0] S256x32
  shapeCasts_S256x32_S256x32x1 : S256x32.ShapeCasts S256x32x1
  inb_S256x32x128_S256x32x128_0_0_0 : ∀ a, (![0, 0, 0] : Fin 3 → Nat) a + S256x32x128.size a ≤ S256x32x128.size a
  h_S256x32x128 : 0 < S256x32x128.numel
  broadcasts_S256x32x1_S256x32x128 : S256x32x1.Broadcasts S256x32x128
  hrank0 : 0 < grid0.rank
  k0_mult1_dvd : ∀ i : grid0.Coords, 128 ∣ (k0_mult1 i).toNat
  k0_off1_inb : ∀ i : grid0.Coords, ∀ a, (k0_off1 i) a + S32x256.size a ≤ S32x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S16384x32x128.size a
  hwx0_0 : ∀ i : grid0.Coords, EltTy.bits .f32 = 32 ∨ (Rect.block (s := S16384x32x128) S256x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x16384.size a
  hwx0_1 : ∀ i : grid0.Coords, EltTy.bits .f32 = 32 ∨ (Rect.block (s := S32x16384) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x128.size a ≤ S16384x32x128.size a
  hwx0_2 : ∀ i : grid0.Coords, EltTy.bits .f32 = 32 ∨ (Rect.block (s := S16384x32x128) S256x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16384.size a ≤ S32x16384.size a
  hwx0_3 : ∀ i : grid0.Coords, EltTy.bits .f32 = 32 ∨ (Rect.block (s := S32x16384) S32x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32x128.size a ≤ S16384x32x128.size a
  hwx0_4 : ∀ i : grid0.Coords, EltTy.bits .f32 = 32 ∨ (Rect.block (s := S16384x32x128) S256x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x16384.size a
  hwx0_5 : ∀ i : grid0.Coords, EltTy.bits .f32 = 32 ∨ (Rect.block (s := S32x16384) S32x256.size (cc0_transform_5 i) (hinb0_5 i)).WholeWords (EltTy.packing .f32)

variable [Facts₀]

abbrev win0_0 : Pipeline.Window sig grid0 :=
  Pipeline.Window.ofSpec (Memref.whole main_arg0) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x32x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x32x128 : Shape := ⟨3, ![16384, 32, 128]⟩
abbrev S32x16384 : Shape := ⟨2, ![32, 16384]⟩
abbrev S16384x32 : Shape := ⟨2, ![16384, 32]⟩
abbrev S_ : Shape := ⟨0, ![]⟩
abbrev S16384x32x1 : Shape := ⟨3, ![16384, 32, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x32x128, .f32⟩
  | .hbm, ⟨1, _⟩ => ⟨S32x16384, .f32⟩
  | .hbm, ⟨2, _⟩ => ⟨S16384x32x128, .f32⟩
  | .hbm, ⟨3, _⟩ => ⟨S32x16384, .f32⟩
  | .hbm, ⟨4, _⟩ => ⟨S16384x32, .f32⟩
  | .hbm, ⟨5, _⟩ => ⟨S16384x32, .f32⟩
  | .hbm, ⟨6, _⟩ => ⟨S16384x32, .f32⟩
  | .hbm, ⟨7, _⟩ => ⟨S_, .f32⟩
  | .hbm, ⟨8, _⟩ => ⟨S16384x32, .f32⟩
  | .hbm, ⟨9, _⟩ => ⟨S16384x32, .i1⟩
  | .hbm, ⟨10, _⟩ => ⟨S_, .f32⟩
  | .hbm, ⟨11, _⟩ => ⟨S16384x32, .f32⟩
  | .hbm, ⟨12, _⟩ => ⟨S16384x32, .i1⟩
  | .hbm, ⟨13, _⟩ => ⟨S16384x32, .i1⟩
  | .hbm, ⟨14, _⟩ => ⟨S_, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S_, .f32⟩
  | .hbm, ⟨19, _⟩ => ⟨S16384x32, .f32⟩
  | .hbm, ⟨20, _⟩ => ⟨S16384x32, .i1⟩
  | .hbm, ⟨21, _⟩ => ⟨S_, .f32⟩
  | .hbm, ⟨22, _⟩ => ⟨S16384x32, .f32⟩
  | .hbm, ⟨23, _⟩ => ⟨S16384x32, .i1⟩
  | .hbm, ⟨24, _⟩ => ⟨S16384x32, .i1⟩
  | .hbm, ⟨25, _⟩ => ⟨S_, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S32x16384, .f32⟩
  | .hbm, ⟨37, _⟩ => ⟨S16384x32, .f32⟩
  | .hbm, ⟨38, _⟩ => ⟨S16384x32x1, .f32⟩
  | .hbm, ⟨39, _⟩ => ⟨S16384x32, .f32⟩
  | .hbm, ⟨40, _⟩ => ⟨S16384x32x1, .f32⟩
  | .hbm, ⟨41, _⟩ => ⟨S16384x32x128, .f32⟩
  | .hbm, ⟨42, _⟩ => ⟨S16384x32x128, .f32⟩
  | .hbm, ⟨43, _⟩ => ⟨S16384x32x128, .f32⟩
  | .hbm, ⟨44, _⟩ => ⟨S16384x32x128, .f32⟩
  | .hbm, ⟨45, _⟩ => ⟨S16384x32x128, .f32⟩
  | _, _ => ⟨S16384x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_call1_v0 : Ref sig .tc := ⟨.hbm, 15, rfl⟩
abbrev main_v6 : Ref sig .tc := ⟨.hbm, 16, rfl⟩
abbrev main_call2_v0 : Ref sig .tc := ⟨.hbm, 17, rfl⟩
abbrev main_call2_cst : Ref sig .tc := ⟨.hbm, 18, rfl⟩
abbrev main_call2_v1 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  transposes_S32x16384_S16384x32_1_0 : S32x16384.Transposes [1, 0] S16384x32
  bcast_S_S16384x32 : S_.BroadcastsInDim S16384x32 (![] : Fin 0 → Fin S16384x32.rank)
  transposes_S16384x32_S32x16384_1_0 : S16384x32.Transposes [1, 0] S32x16384
  bcast_S16384x32_S16384x32x1_0_1 : S16384x32.BroadcastsInDim S16384x32x1 (![0, 1] : Fin 2 → Fin S16384x32x1.rank)
  bcast_S16384x32x1_S16384x32x128_0_1_2 : S16384x32x1.BroadcastsInDim S16384x32x128 (![0, 1, 2] : Fin 3 → Fin S16384x32x128.rank)

variable [Facts₀]

class Facts : Prop extends Facts₀ where

variable [Facts]
-- ==== Proof.LseMerge.lean ====
import Idealize.ShloMosaic.PureOps.Ideal.Laws
import Idealize.ShloMosaic.Lib.ValueIdx
import Idealize.ShloMosaic.Lib.IdealHost

noncomputable section

/-! # Merging two attention partial results by their log-sum-exps, over the extended reals

For one (head, token) pair let p and s be the log-sum-exps of the prefix and of the suffix part. An infinite +∞ is first
replaced by −∞. With M = max p s the two parts weigh exp (p − M) and exp (s − M); their sum is the normaliser. The merged
log-sum-exp is log (normaliser) + M, and each part's share of the merged output is its weight over the normaliser.
One program multiplies the weight by the reciprocal 1 / normaliser, the other divides the weight by the normaliser: for
real p and s the normaliser is a positive real, so the two spellings of the share are the same real number. (When both
p and s are −∞ the normaliser is 0 and the two spellings differ, so reals are what the law needs.) -/

namespace Cert.LseMerge

open Idealize.ShloMosaic Idealize.ShloMosaic.ValueIdx

/-- The word 0x7F800000 is +∞. -/
theorem ofBits_posInf : Ideal.ofBits .f32 0x7F800000#32 = ⊤ := by simp [Ideal.ofBits, Ideal.ieee]

/-- The word 0xFF800000 is −∞. -/
theorem ofBits_negInf : Ideal.ofBits .f32 0xFF800000#32 = ⊥ := by simp [Ideal.ofBits, Ideal.ieee]

/-- The larger of two reals, as an extended real. -/
theorem max_coe (a b : ℝ) : max (a : EReal) (b : EReal) = ((max a b : ℝ) : EReal) :=
  (EReal.coe_strictMono.monotone.map_max).symm

/-- A log-sum-exp with +∞ replaced by −∞: selected where |x| = +∞ and x > 0. -/
def clean (x : Ideal .f32) : Ideal .f32 :=
  Scalar.select (IntOp.andi (FloatOps.cmpf .oeq (FloatOps.absf x) (FloatOps.ofBits .f32 0x7F800000#32))
      (FloatOps.cmpf .ogt x (FloatOps.ofBits .f32 0x00000000#32)))
    (FloatOps.ofBits .f32 0xFF800000#32) x

/-- The larger of the two cleaned log-sum-exps. -/
def top (p s : Ideal .f32) : Ideal .f32 := FloatOps.maximumf (clean p) (clean s)

/-- The weight exp (x − M) of a part with log-sum-exp x, M the larger of p and s. -/
def weight (x p s : Ideal .f32) : Ideal .f32 := FloatOps.exp (FloatOps.subf (clean x) (top p s))

/-- The normaliser: the two weights added. -/
def norm (p s : Ideal .f32) : Ideal .f32 := FloatOps.addf (weight p p s) (weight s p s)

/-- The merged log-sum-exp, log (normaliser) + M. -/
def lse (p s : Ideal .f32) : Ideal .f32 := FloatOps.addf (FloatOps.log (norm p s)) (top p s)

/-- A part's share spelt weight × (1 / normaliser). -/
def shareRecip (x p s : Ideal .f32) : Ideal .f32 :=
  FloatOps.mulf (weight x p s) (FloatOps.divf (FloatOps.ofBits .f32 0x3F800000#32) (norm p s))

/-- A part's share spelt weight / normaliser. -/
def shareQuot (x p s : Ideal .f32) : Ideal .f32 := FloatOps.divf (weight x p s) (norm p s)

/-- A real log-sum-exp is not +∞, so cleaning leaves it as it is. -/
theorem clean_coe (r : ℝ) : clean ((r : EReal) : Ideal .f32) = (r : EReal) := by
  have hne : max (r : EReal) (-(r : EReal)) ≠ ⊤ := by
    rw [← EReal.coe_neg, max_coe]; exact EReal.coe_ne_top _
  have h : FloatOps.cmpf (F := Ideal) (φ := .f32) .oeq (FloatOps.absf ((r : EReal) : Ideal .f32)) (FloatOps.ofBits .f32 0x7F800000#32) = 0#1 := by
    show Ideal.cmp .oeq (max (r : EReal) (-(r : EReal))) (Ideal.ofBits .f32 0x7F800000#32) = 0#1
    rw [ofBits_posInf]
    simp [Ideal.cmp, hne]
  unfold clean
  rw [h, show ∀ y : BitVec 1, IntOp.andi 0#1 y = 0#1 from by decide, select_zero]

/-- For real log-sum-exps the normaliser is a positive real. -/
theorem norm_coe (p s : ℝ) : norm ((p : EReal) : Ideal .f32) ((s : EReal) : Ideal .f32)
    = ((Real.exp (p - max p s) + Real.exp (s - max p s) : ℝ) : EReal) := by
  unfold norm weight top
  rw [clean_coe, clean_coe]
  show Ideal.exp ((p : EReal) - max (p : EReal) (s : EReal)) + Ideal.exp ((s : EReal) - max (p : EReal) (s : EReal)) = _
  rw [max_coe, ← EReal.coe_sub, ← EReal.coe_sub, Ideal.exp_coe, Ideal.exp_coe, ← EReal.coe_add]

/-- For real log-sum-exps, weight × (1 / normaliser) is weight / normaliser. -/
theorem shareRecip_eq_shareQuot (x p s : ℝ) :
    shareRecip ((x : EReal) : Ideal .f32) ((p : EReal) : Ideal .f32) ((s : EReal) : Ideal .f32)
      = shareQuot ((x : EReal) : Ideal .f32) ((p : EReal) : Ideal .f32) ((s : EReal) : Ideal .f32) := by
  have hpos : (Real.exp (p - max p s) + Real.exp (s - max p s) : ℝ) ≠ 0 :=
    ne_of_gt (add_pos (Real.exp_pos _) (Real.exp_pos _))
  unfold shareRecip shareQuot
  show weight _ _ _ * Ideal.div (Ideal.ofBits .f32 0x3F800000#32) (norm _ _) = Ideal.div (weight _ _ _) (norm _ _)
  rw [norm_coe, Ideal.div_coe hpos, Ideal.div_coe hpos, Ideal.ofBits_one_f32, one_mul]

/-! ## The two merged arrays

Tokens T = 16384, heads H = 32, lanes D = 128. The partial outputs are [T, H, D]; the log-sum-exps are [H, T]. -/

/-- The merged log-sum-exp array, (head, token) by (head, token). -/
def mergedLse (pl sl : (⟨2, ![32, 16384]⟩ : Shape).Idx → Ideal .f32) : (⟨2, ![32, 16384]⟩ : Shape).Idx → Ideal .f32 :=
  fun i => lse (pl i) (sl i)

/-- The merged output at (token, head, lane): each partial output times its part's share at (head, token), added; the
    share in either spelling. -/
def mergedAt (share : Ideal .f32 → Ideal .f32 → Ideal .f32 → Ideal .f32)
    (po : (⟨3, ![16384, 32, 128]⟩ : Shape).Idx → Ideal .f32) (pl : (⟨2, ![32, 16384]⟩ : Shape).Idx → Ideal .f32)
    (so : (⟨3, ![16384, 32, 128]⟩ : Shape).Idx → Ideal .f32) (sl : (⟨2, ![32, 16384]⟩ : Shape).Idx → Ideal .f32)
    (t : Fin 16384) (h : Fin 32) (d : Fin 128) : Ideal .f32 :=
  po (ix3 t h d) * share (pl (ix2 h t)) (pl (ix2 h t)) (sl (ix2 h t))
    + so (ix3 t h d) * share (sl (ix2 h t)) (pl (ix2 h t)) (sl (ix2 h t))

/-- The merged output array. -/
def merged (share : Ideal .f32 → Ideal .f32 → Ideal .f32 → Ideal .f32)
    (po : (⟨3, ![16384, 32, 128]⟩ : Shape).Idx → Ideal .f32) (pl : (⟨2, ![32, 16384]⟩ : Shape).Idx → Ideal .f32)
    (so : (⟨3, ![16384, 32, 128]⟩ : Shape).Idx → Ideal .f32) (sl : (⟨2, ![32, 16384]⟩ : Shape).Idx → Ideal .f32) :
    (⟨3, ![16384, 32, 128]⟩ : Shape).Idx → Ideal .f32 :=
  fun i => mergedAt share po pl so sl (i 0) (i 1) (i 2)

theorem merged_ix3 (share : Ideal .f32 → Ideal .f32 → Ideal .f32 → Ideal .f32)
    (po : (⟨3, ![16384, 32, 128]⟩ : Shape).Idx → Ideal .f32) (pl : (⟨2, ![32, 16384]⟩ : Shape).Idx → Ideal .f32)
    (so : (⟨3, ![16384, 32, 128]⟩ : Shape).Idx → Ideal .f32) (sl : (⟨2, ![32, 16384]⟩ : Shape).Idx → Ideal .f32)
    (t : Fin 16384) (h : Fin 32) (d : Fin 128) :
    merged share po pl so sl (ix3 t h d) = mergedAt share po pl so sl t h d := rfl

/-- When every log-sum-exp is a real number the two spellings of the share give one merged output. -/
theorem merged_recip_eq_quot
    (po : (⟨3, ![16384, 32, 128]⟩ : Shape).Idx → Ideal .f32) (pl : (⟨2, ![32, 16384]⟩ : Shape).Idx → Ideal .f32)
    (so : (⟨3, ![16384, 32, 128]⟩ : Shape).Idx → Ideal .f32) (sl : (⟨2, ![32, 16384]⟩ : Shape).Idx → Ideal .f32)
    (hpl : ∀ i, ∃ r : ℝ, pl i = (r : EReal)) (hsl : ∀ i, ∃ r : ℝ, sl i = (r : EReal)) :
    merged shareRecip po pl so sl = merged shareQuot po pl so sl := by
  funext i
  obtain ⟨p, hp⟩ := hpl (ix2 (i 1) (i 0))
  obtain ⟨s, hs⟩ := hsl (ix2 (i 1) (i 0))
  unfold merged mergedAt
  rw [hp, hs, shareRecip_eq_shareQuot, shareRecip_eq_shareQuot]

end Cert.LseMerge

end
-- ==== Proof.Pieces.lean ====
import proofs.«131252_j3470333575378_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-! # What one grid step leaves in its two output blocks

A grid step reads, from each of the two whole log-sum-exp arrays [32, 16384], the 256 columns that belong to its
token block, and its own [256, 32, 128] blocks of the two partial outputs. It stores the merged log-sum-exp of those
columns into its [32, 256] block and the weighted sum of the two partial outputs into its [256, 32, 128] block. Both
stores cover their blocks, so what the step leaves is the stored value itself. -/

namespace Cert.KernelIdeal.Step

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The 256 columns of a whole log-sum-exp array that the step at grid point i loads: all 32 rows, columns from
    256 · i on. -/
def cols (i : grid0.Coords) (x : Vec F S32x16384 .f32) : Vec F S32x256 .f32 :=
  View.ld x (Rect.unit (s := S32x16384) (k0_off1 i) S32x256.size (k0_off1_inb i))

/-- The merged log-sum-exp block: the stored value of the loaded columns. -/
theorem lse_block (c : Dev nD) (i : grid0.Coords) (arg1 : Memref sig .tc .vmem S256x32x128 .f32) (harg1 : arg1.IsWhole) (arg2 : Memref sig .tc .vmem S32x16384 .f32) (harg2 : arg2.IsWhole) (arg3 : Memref sig .tc .vmem S256x32x128 .f32) (harg3 : arg3.IsWhole) (arg4 : Memref sig .tc .vmem S32x16384 .f32) (harg4 : arg4.IsWhole) (arg5 : Memref sig .tc .vmem S256x32x128 .f32) (harg5 : arg5.IsWhole) (arg6 : Memref sig .tc .vmem S32x256 .f32) (harg6 : arg6.IsWhole) (x0 : Vec F S256x32x128 .f32) (x1 : Vec F S32x16384 .f32) (x2 : Vec F S256x32x128 .f32) (x3 : Vec F S32x16384 .f32) :
    out0_A_5 c i arg1 harg1 arg2 harg2 arg3 harg3 arg4 harg4 arg5 harg5 arg6 harg6 x0 x1 x2 x3 = k0_pay8 (cols i x1) (cols i x3) := by
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  sl_unfold_words
  rw [View.canon_unit_zero zeros2]
  simp only [View.readAt_eq_ld, harg2.read_unread, harg4.read_unread]
  rfl

/-- The merged output block: the stored value of the loaded columns and of the two partial-output blocks. -/
theorem out_block (c : Dev nD) (i : grid0.Coords) (arg1 : Memref sig .tc .vmem S256x32x128 .f32) (harg1 : arg1.IsWhole) (arg2 : Memref sig .tc .vmem S32x16384 .f32) (harg2 : arg2.IsWhole) (arg3 : Memref sig .tc .vmem S256x32x128 .f32) (harg3 : arg3.IsWhole) (arg4 : Memref sig .tc .vmem S32x16384 .f32) (harg4 : arg4.IsWhole) (arg5 : Memref sig .tc .vmem S256x32x128 .f32) (harg5 : arg5.IsWhole) (arg6 : Memref sig .tc .vmem S32x256 .f32) (harg6 : arg6.IsWhole) (x0 : Vec F S256x32x128 .f32) (x1 : Vec F S32x16384 .f32) (x2 : Vec F S256x32x128 .f32) (x3 : Vec F S32x16384 .f32) :
    out0_A_4 c i arg1 harg1 arg2 harg2 arg3 harg3 arg4 harg4 arg5 harg5 arg6 harg6 x0 x1 x2 x3 = k0_pay1 (k0_pay10 (cols i x1) (cols i x3)) (k0_pay11 (cols i x1) (cols i x3) x0) x2 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero zeros3]
  simp only [View.readAt_eq_ld, harg1.read_unread, harg2.read_unread, harg3.read_unread, harg4.read_unread,
    View.ld_unit_zero (S := S256x32x128) zeros3]
  rfl

end Cert.KernelIdeal.Step

end
-- ==== Proof.Blocks.lean ====
import proofs.«131252_j3470333575378_2_alg».proof.Proof.Gen.KernelIdeal.Frame
import proofs.«131252_j3470333575378_2_alg».proof.Proof.Pieces
import Idealize.ShloMosaic.Lib.Pipeline.Value
import Idealize.ShloMosaic.Lib.ValueIdx

noncomputable section

open Idealize.ShloMosaic Idealize.ShloMosaic.TcCoe Idealize.SL.Sem

/-! # Where a grid step's blocks sit in the arrays

Grid point t (of 64) works on tokens 256 t … 256 t + 255. Its blocks of the two partial outputs and of the merged output
are rows 256 t + p of their [16384, 32, 128] arrays; the two log-sum-exp windows are the whole [32, 16384] arrays at every
point, and the columns the step loads from them are columns 256 t + q; its block of the merged log-sum-exp is columns
256 t + q of the [32, 16384] result. -/

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps and the printed column offset, decided over the 64 grid points: the three [256, 32, 128]
    windows move along the token axis with the point, the two whole-array windows stay, the [32, 256] window moves along
    its column axis, and the loaded columns start at 256 t. -/
theorem grid_facts : ∀ t : Fin cfg0.N,
    (win0_0.index t (0 : Fin 3) = t.val ∧ win0_0.index t (1 : Fin 3) = 0 ∧ win0_0.index t (2 : Fin 3) = 0)
    ∧ (win0_2.index t (0 : Fin 3) = t.val ∧ win0_2.index t (1 : Fin 3) = 0 ∧ win0_2.index t (2 : Fin 3) = 0)
    ∧ (win0_4.index t (0 : Fin 3) = t.val ∧ win0_4.index t (1 : Fin 3) = 0 ∧ win0_4.index t (2 : Fin 3) = 0)
    ∧ (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = t.val)
    ∧ (k0_off1 (grid0.coords t) (0 : Fin 2) = 0 ∧ k0_off1 (grid0.coords t) (1 : Fin 2) = 256 * t.val) :=
  (by decide +kernel : ∀ t : Fin grid0.N, _)

/-- The prefix partial output's block at point t, at (p, h, d), is the array at row 256 t + p. -/
theorem prefix_block_at (c : Dev nD) (t : Fin cfg0.N) (p : Fin 256) (h : Fin 32) (d : Fin 128) (k : Fin 16384)
    (hk : k.val = 256 * t.val + p.val) :
    (iblk m c 0 t : Vec F S256x32x128 .f32) (ix3 p h d) = (V m c main_arg0 : S16384x32x128.Idx → Elt F .f32) (ix3 k h d) := by
  obtain ⟨⟨e0, e1, e2⟩, -⟩ := grid_facts t
  unfold iblk
  rw [View.read_apply]
  show V m c main_arg0 _ = V m c main_arg0 _
  refine congrArg (V m c main_arg0) (funext fun a => Fin.ext ?_)
  match a with
  | ⟨0, _⟩ => show win0_0.index t (0 : Fin 3) * 256 + 1 * p.val = k.val; rw [e0, hk]; omega
  | ⟨1, _⟩ => show win0_0.index t (1 : Fin 3) * 32 + 1 * h.val = h.val; rw [e1]; omega
  | ⟨2, _⟩ => show win0_0.index t (2 : Fin 3) * 128 + 1 * d.val = d.val; rw [e2]; omega

/-- The suffix partial output's block at point t, at (p, h, d), is the array at row 256 t + p. -/
theorem suffix_block_at (c : Dev nD) (t : Fin cfg0.N) (p : Fin 256) (h : Fin 32) (d : Fin 128) (k : Fin 16384)
    (hk : k.val = 256 * t.val + p.val) :
    (iblk m c 2 t : Vec F S256x32x128 .f32) (ix3 p h d) = (V m c main_arg2 : S16384x32x128.Idx → Elt F .f32) (ix3 k h d) := by
  obtain ⟨-, ⟨e0, e1, e2⟩, -⟩ := grid_facts t
  unfold iblk
  rw [View.read_apply]
  show V m c main_arg2 _ = V m c main_arg2 _
  refine congrArg (V m c main_arg2) (funext fun a => Fin.ext ?_)
  match a with
  | ⟨0, _⟩ => show win0_2.index t (0 : Fin 3) * 256 + 1 * p.val = k.val; rw [e0, hk]; omega
  | ⟨1, _⟩ => show win0_2.index t (1 : Fin 3) * 32 + 1 * h.val = h.val; rw [e1]; omega
  | ⟨2, _⟩ => show win0_2.index t (2 : Fin 3) * 128 + 1 * d.val = d.val; rw [e2]; omega

/-- The columns the step at point t loads from the prefix log-sum-exp window, at (h, q), are the array at column 256 t + q. -/
theorem prefix_cols_at (c : Dev nD) (t : Fin cfg0.N) (h : Fin 32) (q : Fin 256) (k : Fin 16384)
    (hk : k.val = 256 * t.val + q.val) :
    Step.cols (grid0.coords t) (iblk m c 1 t : Vec F S32x16384 .f32) (ix2 h q)
      = (V m c main_arg1 : S32x16384.Idx → Elt F .f32) (ix2 h k) := by
  obtain ⟨-, -, -, ⟨e0, e1⟩, -, -, ⟨o0, o1⟩⟩ := grid_facts t
  unfold Step.cols iblk
  show ((cfg0.win 1).blk t).view.read (Elt F) (V m c (Pipeline.arrRef spec0 1)) _ = _
  rw [View.read_apply]
  show V m c main_arg1 _ = V m c main_arg1 _
  refine congrArg (V m c main_arg1) (funext fun a => Fin.ext ?_)
  match a with
  | ⟨0, _⟩ => show win0_1.index t (0 : Fin 2) * 32 + 1 * (k0_off1 (grid0.coords t) (0 : Fin 2) + 1 * h.val) = h.val; rw [e0, o0]; omega
  | ⟨1, _⟩ => show win0_1.index t (1 : Fin 2) * 16384 + 1 * (k0_off1 (grid0.coords t) (1 : Fin 2) + 1 * q.val) = k.val; rw [e1, o1, hk]; omega

/-- The columns the step at point t loads from the suffix log-sum-exp window, at (h, q), are the array at column 256 t + q. -/
theorem suffix_cols_at (c : Dev nD) (t : Fin cfg0.N) (h : Fin 32) (q : Fin 256) (k : Fin 16384)
    (hk : k.val = 256 * t.val + q.val) :
    Step.cols (grid0.coords t) (iblk m c 3 t : Vec F S32x16384 .f32) (ix2 h q)
      = (V m c main_arg3 : S32x16384.Idx → Elt F .f32) (ix2 h k) := by
  obtain ⟨-, -, -, -, ⟨e0, e1⟩, -, ⟨o0, o1⟩⟩ := grid_facts t
  unfold Step.cols iblk
  show ((cfg0.win 3).blk t).view.read (Elt F) (V m c (Pipeline.arrRef spec0 3)) _ = _
  rw [View.read_apply]
  show V m c main_arg3 _ = V m c main_arg3 _
  refine congrArg (V m c main_arg3) (funext fun a => Fin.ext ?_)
  match a with
  | ⟨0, _⟩ => show win0_3.index t (0 : Fin 2) * 32 + 1 * (k0_off1 (grid0.coords t) (0 : Fin 2) + 1 * h.val) = h.val; rw [e0, o0]; omega
  | ⟨1, _⟩ => show win0_3.index t (1 : Fin 2) * 16384 + 1 * (k0_off1 (grid0.coords t) (1 : Fin 2) + 1 * q.val) = k.val; rw [e1, o1, hk]; omega

end Cert.KernelIdeal.Blocks

end
-- ==== Proof.LibTrailingUnit.lean ====
import Idealize.ShloMosaic.Lib.ValueLayout

noncomputable section

/-! # A trailing unit axis, read by coordinates; equality of arrays by coordinates

A matrix [a, b] viewed as [a, b, 1] (a shape cast that appends a unit axis) and an [a, b, 1] array spread along a new
last axis to [a, b, c] (a broadcast), each read at an index written by its coordinates. Together they are the keepdims
form x[:, :, None] against an [a, b, c] array. Last, two arrays of rank 2 or 3 are equal when they agree at every
index written by coordinates. General in the extents and in the element type. -/

namespace Cert.TrailingUnit

open Idealize.ShloMosaic Idealize.ShloMosaic.ValueIdx

variable {α : Type}

/-- An [a, b] array cast to [a, b, 1] reads, at (i, j, u), the operand at (i, j): the two row-major positions agree
    because the appended coordinate u is 0. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- Two functions on a rank-2 index type are equal when they agree at every pair of coordinates. -/
theorem funext_ix2 {a b : ℕ} {f g : (⟨2, ![a, b]⟩ : Shape).Idx → α} (h : ∀ (i : Fin a) (j : Fin b), f (ix2 i j) = g (ix2 i j)) :
    f = g :=
  funext fun x => by rw [eq_ix2 x]; exact h _ _

/-- Two functions on a rank-3 index type are equal when they agree at every triple of coordinates. -/
theorem funext_ix3 {a b c : ℕ} {f g : (⟨3, ![a, b, c]⟩ : Shape).Idx → α}
    (h : ∀ (i : Fin a) (j : Fin b) (k : Fin c), f (ix3 i j k) = g (ix3 i j k)) : f = g :=
  funext fun x => by rw [eq_ix3 x]; exact h _ _ _

end Cert.TrailingUnit

end
-- ==== Proof.Stored.lean ====
import proofs.«131252_j3470333575378_2_alg».proof.Proof.Gen.KernelIdeal.Skeleton
import proofs.«131252_j3470333575378_2_alg».proof.Proof.LseMerge
import proofs.«131252_j3470333575378_2_alg».proof.Proof.LibTrailingUnit
import Idealize.ShloMosaic.Lib.ValueLayout

noncomputable section

open Idealize.ShloMosaic Idealize.ShloMosaic.TcCoe Idealize.SL.Sem

/-! # The two stored values, read at an index, over the extended reals

The value stored into the [32, 256] block is, at (head, column), the merged log-sum-exp of the two loaded columns'
entries there. The value stored into the [256, 32, 128] block is, at (row, head, lane), the prefix block's entry times
the prefix share plus the suffix block's entry times the suffix share, both shares taken at (head, row) of the loaded
columns: the shares are computed on [32, 256], transposed to [256, 32], given a trailing unit axis and spread along the
128 lanes. The share is spelt weight × (1 / normaliser). -/

namespace Cert.KernelIdeal.Stored

open Cert.KernelIdeal Cert.KernelIdeal.Gen Cert.LseMerge Cert.TrailingUnit Idealize.ShloMosaic.ValueIdx

/-- The stored log-sum-exp value at (head, column). -/
theorem lse_at (v3 v5 : Vec Ideal S32x256 .f32) (h : Fin 32) (q : Fin 256) :
    k0_pay8 (F := Ideal) v3 v5 (ix2 h q) = lse (v3 (ix2 h q)) (v5 (ix2 h q)) := rfl

/-- The suffix share after the transpose and the trailing unit axis, at (row, head, 0). -/
theorem suffix_share_at (v3 v5 : Vec Ideal S32x256 .f32) (p : Fin 256) (h : Fin 32) (u : Fin 1) :
    k0_pay10 (F := Ideal) v3 v5 (ix3 p h u) = shareRecip (v5 (ix2 h p)) (v3 (ix2 h p)) (v5 (ix2 h p)) := by
  unfold k0_pay10
  refine (shapeCast_ab_ab1_apply _ _ p h u).trans ?_
  refine (transpose_ix2_apply _ _ p h).trans ?_
  rfl

/-- The prefix term: the prefix block's entry times the prefix share at (head, row). -/
theorem prefix_term_at (v3 v5 : Vec Ideal S32x256 .f32) (v39 : Vec Ideal S256x32x128 .f32) (p : Fin 256) (h : Fin 32) (d : Fin 128) :
    k0_pay11 (F := Ideal) v3 v5 v39 (ix3 p h d)
      = v39 (ix3 p h d) * shareRecip (v3 (ix2 h p)) (v3 (ix2 h p)) (v5 (ix2 h p)) := by
  unfold k0_pay11
  refine congrArg (fun z => v39 (ix3 p h d) * z) ?_
  refine (broadcastTo_ab1_abc_apply _ _ p h d).trans ?_
  refine (shapeCast_ab_ab1_apply _ _ p h 0).trans ?_
  refine (transpose_ix2_apply _ _ p h).trans ?_
  rfl

/-- The stored output value: a term already computed plus the suffix block's entry times a share spread along the lanes. -/
theorem sum_at (v38 : FVec Ideal S256x32x1 .f32) (v41 : FVec Ideal S256x32x128 .f32) (v42 : Vec Ideal S256x32x128 .f32)
    (p : Fin 256) (h : Fin 32) (d : Fin 128) :
    k0_pay1 (F := Ideal) v38 v41 v42 (ix3 p h d) = v41 (ix3 p h d) + v42 (ix3 p h d) * v38 (ix3 p h (0 : Fin 1)) := by
  unfold k0_pay1
  exact congrArg (fun z => v41 (ix3 p h d) + v42 (ix3 p h d) * z) (broadcastTo_ab1_abc_apply _ _ p h d)

/-- The stored output value at (row, head, lane). -/
theorem out_at (v3 v5 : Vec Ideal S32x256 .f32) (v39 v42 : Vec Ideal S256x32x128 .f32) (p : Fin 256) (h : Fin 32) (d : Fin 128) :
    k0_pay1 (F := Ideal) (k0_pay10 v3 v5) (k0_pay11 v3 v5 v39) v42 (ix3 p h d)
      = v39 (ix3 p h d) * shareRecip (v3 (ix2 h p)) (v3 (ix2 h p)) (v5 (ix2 h p))
        + v42 (ix3 p h d) * shareRecip (v5 (ix2 h p)) (v3 (ix2 h p)) (v5 (ix2 h p)) := by
  rw [sum_at, prefix_term_at, suffix_share_at]

end Cert.KernelIdeal.Stored

end
-- ==== Proof.KernelValue.lean ====
import proofs.«131252_j3470333575378_2_alg».proof.Proof.Gen.KernelIdeal.Value
import proofs.«131252_j3470333575378_2_alg».proof.Proof.Pieces
import proofs.«131252_j3470333575378_2_alg».proof.Proof.Blocks
import proofs.«131252_j3470333575378_2_alg».proof.Proof.Stored
import proofs.«131252_j3470333575378_2_alg».proof.Proof.LseMerge
import proofs.«131252_j3470333575378_2_alg».proof.Proof.LibTrailingUnit
import Idealize.ShloMosaic.Lib.Pipeline.Value

noncomputable section

open Idealize.ShloMosaic Idealize.ShloMosaic.TcCoe Idealize.SL.Sem
open Idealize.ShloMosaic.Pipeline (Dat)

/-! # The kernel's two result arrays are the merged arrays

What grid point t writes back to each result array is that point's block of one whole-array function of the four
argument arrays: the merged output (the share spelt weight × reciprocal) and the merged log-sum-exp. The 64 blocks tile
each result array (the block holding row r, or column r, is block r / 256), so after the run each result array is that
function. -/

namespace Cert.KernelIdeal.Final

open Cert.KernelIdeal Cert.KernelIdeal.Gen Cert.KernelIdeal.Value Cert.LseMerge Cert.TrailingUnit
open Idealize.ShloMosaic.ValueIdx

variable (m : (ℓ : Loc nD τ sig) → Buf (Elt Ideal) ℓ) (ρ : Dev nD → PrngReg)

/-- The merged output of the argument arrays as the region finds them. -/
abbrev outArr (c : Dev nD) : S16384x32x128.Idx → Ideal .f32 :=
  merged shareRecip (V m c main_arg0) (V m c main_arg1) (V m c main_arg2) (V m c main_arg3)

/-- The merged log-sum-exp of the argument arrays as the region finds them. -/
abbrev lseArr (c : Dev nD) : S32x16384.Idx → Ideal .f32 := mergedLse (V m c main_arg1) (V m c main_arg3)

/-- The value stored by point t, at (p, h, d), is the merged output at token 256 t + p. -/
theorem out_point (c : Dev nD) (t : Fin cfg0.N) (p : Fin 256) (h : Fin 32) (d : Fin 128) (k : Fin 16384)
    (hk : k.val = 256 * t.val + p.val) :
    k0_pay1 (F := Ideal) (k0_pay10 (Step.cols (grid0.coords t) (iblk m c 1 t)) (Step.cols (grid0.coords t) (iblk m c 3 t)))
        (k0_pay11 (Step.cols (grid0.coords t) (iblk m c 1 t)) (Step.cols (grid0.coords t) (iblk m c 3 t)) (iblk m c 0 t))
        (iblk m c 2 t) (ix3 p h d)
      = outArr m c (ix3 k h d) := by
  rw [Stored.out_at (Step.cols (grid0.coords t) (iblk m c 1 t)) (Step.cols (grid0.coords t) (iblk m c 3 t)) (iblk m c 0 t) (iblk m c 2 t) p h d,
    Blocks.prefix_cols_at m c t h p k hk, Blocks.suffix_cols_at m c t h p k hk,
    Blocks.prefix_block_at m c t p h d k hk, Blocks.suffix_block_at m c t p h d k hk]
  rfl

/-- The value stored by point t, at (h, q), is the merged log-sum-exp at token 256 t + q. -/
theorem lse_point (c : Dev nD) (t : Fin cfg0.N) (h : Fin 32) (q : Fin 256) (k : Fin 16384)
    (hk : k.val = 256 * t.val + q.val) :
    k0_pay8 (F := Ideal) (Step.cols (grid0.coords t) (iblk m c 1 t)) (Step.cols (grid0.coords t) (iblk m c 3 t)) (ix2 h q)
      = lseArr m c (ix2 h k) := by
  rw [Stored.lse_at (Step.cols (grid0.coords t) (iblk m c 1 t)) (Step.cols (grid0.coords t) (iblk m c 3 t)) h q,
    Blocks.prefix_cols_at m c t h q k hk, Blocks.suffix_cols_at m c t h q k hk]
  rfl

/-- What point t writes back to the output array is block t of the merged output. -/
theorem out_flushed (c : Dev nD) (t : Fin cfg0.N) :
    (dats m 0 c).flushed 4 t = ((cfg0.win 4).blk t).view.read (Elt Ideal) (outArr m c) := by
  obtain ⟨-, -, ⟨e0, e1, e2⟩, -⟩ := Blocks.grid_facts t
  have hN : grid0.N = 64 := N_0
  have ht : t.val < 64 := by have h' := t.isLt; change t.val < grid0.N at h'; rw [hN] at h'; exact h'
  rw [flushed4_A, Step.out_block c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)]
  refine funext_ix3 (a := 256) (b := 32) (c := 128) fun p h d => ?_
  have hlt : 256 * t.val + p.val < 16384 := by have := p.isLt; omega
  refine (out_point m c t p h d ⟨256 * t.val + p.val, hlt⟩ rfl).trans ?_
  rw [View.read_apply]
  refine congrArg (outArr m c) (funext fun a => Fin.ext ?_)
  match a with
  | ⟨0, _⟩ => show 256 * t.val + p.val = win0_4.index t (0 : Fin 3) * 256 + 1 * p.val; rw [e0]; omega
  | ⟨1, _⟩ => show h.val = win0_4.index t (1 : Fin 3) * 32 + 1 * h.val; rw [e1]; omega
  | ⟨2, _⟩ => show d.val = win0_4.index t (2 : Fin 3) * 128 + 1 * d.val; rw [e2]; omega

/-- What point t writes back to the log-sum-exp array is block t of the merged log-sum-exp. -/
theorem lse_flushed (c : Dev nD) (t : Fin cfg0.N) :
    (dats m 0 c).flushed 5 t = ((cfg0.win 5).blk t).view.read (Elt Ideal) (lseArr m c) := by
  obtain ⟨-, -, -, -, -, ⟨e0, e1⟩, -⟩ := Blocks.grid_facts t
  have hN : grid0.N = 64 := N_0
  have ht : t.val < 64 := by have h' := t.isLt; change t.val < grid0.N at h'; rw [hN] at h'; exact h'
  rw [flushed5_A, Step.lse_block c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)]
  refine funext_ix2 (a := 32) (b := 256) fun h q => ?_
  have hlt : 256 * t.val + q.val < 16384 := by have := q.isLt; omega
  refine (lse_point m c t h q ⟨256 * t.val + q.val, hlt⟩ rfl).trans ?_
  rw [View.read_apply]
  refine congrArg (lseArr m c) (funext fun a => Fin.ext ?_)
  match a with
  | ⟨0, _⟩ => show h.val = win0_5.index t (0 : Fin 2) * 32 + 1 * h.val; rw [e0]; omega
  | ⟨1, _⟩ => show 256 * t.val + q.val = win0_5.index t (1 : Fin 2) * 256 + 1 * q.val; rw [e1]; omega

/-- An index of the output array is in point t's block iff each coordinate is in the block's range on its axis. -/
theorem mem_out_blk (t : Fin cfg0.N) (i : S16384x32x128.Idx) :
    i ∈ ((cfg0.win 4).blk t).view.set ↔ ∀ a : Fin 3, win0_4.index t a * S256x32x128.size a ≤ (i a).val ∧ (i a).val < win0_4.index t a * S256x32x128.size a + S256x32x128.size a := by
  show i ∈ ((View.whole main_v0_0).slice (win0_4.rect t)).set ↔ _
  rw [View.set_slice_whole, Rect.mem_set_unit]
  exact Iff.rfl

/-- An index of the log-sum-exp array is in point t's block iff each coordinate is in the block's range on its axis. -/
theorem mem_lse_blk (t : Fin cfg0.N) (i : S32x16384.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v0_1).slice (win0_5.rect t)).set ↔ _
  rw [View.set_slice_whole, Rect.mem_set_unit]
  exact Iff.rfl

/-- After the run the output array is the merged output: token row r is in block r / 256. -/
theorem out_final (c : Dev nD) : (dats m 0 c).arrAt 4 cfg0.N = outArr m c :=
  (dats m 0 c).arrAt_eq_of_cover 4 (outArr m c) (fun t _ => out_flushed m c t) fun i => by
    have hN : grid0.N = 64 := N_0
    have h0 : (i 0).val < 16384 := (i 0).isLt
    have h1 : (i 1).val < 32 := (i 1).isLt
    have h2 : (i 2).val < 128 := (i 2).isLt
    have ht : (i 0).val / 256 < cfg0.N := by show _ < grid0.N; rw [hN]; omega
    obtain ⟨-, -, ⟨e0, e1, e2⟩, -⟩ := Blocks.grid_facts ⟨(i 0).val / 256, ht⟩
    refine ⟨⟨(i 0).val / 256, ht⟩, flush0_4 _, ?_⟩
    rw [mem_out_blk]
    intro a
    match a with
    | ⟨0, _⟩ =>
      show win0_4.index ⟨(i 0).val / 256, ht⟩ (0 : Fin 3) * 256 ≤ (i 0).val ∧ (i 0).val < win0_4.index ⟨(i 0).val / 256, ht⟩ (0 : Fin 3) * 256 + 256
      rw [e0]; show (i 0).val / 256 * 256 ≤ (i 0).val ∧ (i 0).val < (i 0).val / 256 * 256 + 256; omega
    | ⟨1, _⟩ =>
      show win0_4.index ⟨(i 0).val / 256, ht⟩ (1 : Fin 3) * 32 ≤ (i 1).val ∧ (i 1).val < win0_4.index ⟨(i 0).val / 256, ht⟩ (1 : Fin 3) * 32 + 32
      rw [e1]; omega
    | ⟨2, _⟩ =>
      show win0_4.index ⟨(i 0).val / 256, ht⟩ (2 : Fin 3) * 128 ≤ (i 2).val ∧ (i 2).val < win0_4.index ⟨(i 0).val / 256, ht⟩ (2 : Fin 3) * 128 + 128
      rw [e2]; omega

/-- After the run the log-sum-exp array is the merged log-sum-exp: token column r is in block r / 256. -/
theorem lse_final (c : Dev nD) : (dats m 0 c).arrAt 5 cfg0.N = lseArr m c :=
  (dats m 0 c).arrAt_eq_of_cover 5 (lseArr m c) (fun t _ => lse_flushed m c t) fun i => by
    have hN : grid0.N = 64 := N_0
    have h0 : (i 0).val < 32 := (i 0).isLt
    have h1 : (i 1).val < 16384 := (i 1).isLt
    have ht : (i 1).val / 256 < cfg0.N := by show _ < grid0.N; rw [hN]; omega
    obtain ⟨-, -, -, -, -, ⟨e0, e1⟩, -⟩ := Blocks.grid_facts ⟨(i 1).val / 256, ht⟩
    refine ⟨⟨(i 1).val / 256, ht⟩, flush0_5 _, ?_⟩
    rw [mem_lse_blk]
    intro a
    match a with
    | ⟨0, _⟩ =>
      show win0_5.index ⟨(i 1).val / 256, ht⟩ (0 : Fin 2) * 32 ≤ (i 0).val ∧ (i 0).val < win0_5.index ⟨(i 1).val / 256, ht⟩ (0 : Fin 2) * 32 + 32
      rw [e0]; omega
    | ⟨1, _⟩ =>
      show win0_5.index ⟨(i 1).val / 256, ht⟩ (1 : Fin 2) * 256 ≤ (i 1).val ∧ (i 1).val < win0_5.index ⟨(i 1).val / 256, ht⟩ (1 : Fin 2) * 256 + 256
      rw [e1]; show (i 1).val / 256 * 256 ≤ (i 1).val ∧ (i 1).val < (i 1).val / 256 * 256 + 256; omega

/-- The kernel's run: it terminates with the output array at the merged output (share spelt weight × reciprocal) and
    the log-sum-exp array at the merged log-sum-exp of the launch contents of its arguments, the arguments unchanged. -/
theorem run : θ_run defs (onTc (τ := τ) (main (F := Ideal))) ⟨m, fun _ => 0, ρ⟩ fun r => ∀ c : Dev nD,
      r.2.mem ((c : Thread nD τ).loc main_v0_0)
        = merged shareRecip (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = mergedLse (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out_final m c), (h c).2.1.trans (lse_final m c), (h c).2.2⟩)
    (run_blocks m ρ)

end Cert.KernelIdeal.Final

end
-- ==== Proof.RefValue.lean ====
import proofs.«131252_j3470333575378_2_alg».proof.Proof.Gen.ReferenceIdeal.Read
import proofs.«131252_j3470333575378_2_alg».proof.Proof.LseMerge
import Idealize.ShloMosaic.Lib.ValueIdx

noncomputable section

open Idealize.ShloMosaic Idealize.ShloMosaic.TcCoe Idealize.SL.Sem

/-! # The reference's two results are the merged arrays

The reference first transposes both log-sum-exp arrays to (token, head), computes everything there, and transposes the
merged log-sum-exp back. Stage by stage, at (token, head) each stage is the scalar function of the two log-sum-exps at
(head, token); the share is spelt weight / normaliser. The output multiplies each partial output by its share, given a
trailing unit axis and spread along the lanes, and adds. -/

namespace Cert.ReferenceIdeal.RefValue

open Cert.ReferenceIdeal Cert.ReferenceIdeal.Read Cert.LseMerge Idealize.ShloMosaic.ValueIdx

variable (x1 x3 : (⟨S32x16384, .f32⟩ : BufTy).Contents (Elt Ideal))

/-- The transposed prefix log-sum-exp at (token, head) is the argument at (head, token). -/
theorem prefixT_at (t : Fin 16384) (h : Fin 32) : val_main_v0 (F := Ideal) x1 (ix2 t h) = x1 (ix2 h t) := by
  rw [val_main_v0_apply]
  exact congrArg x1 (funext fun a => by match a with | ⟨0, _⟩ => rfl | ⟨1, _⟩ => rfl)

/-- The transposed suffix log-sum-exp at (token, head) is the argument at (head, token). -/
theorem suffixT_at (t : Fin 16384) (h : Fin 32) : val_main_v1 (F := Ideal) x3 (ix2 t h) = x3 (ix2 h t) := by
  rw [val_main_v1_apply]
  exact congrArg x3 (funext fun a => by match a with | ⟨0, _⟩ => rfl | ⟨1, _⟩ => rfl)

theorem prefix_clean_at (t : Fin 16384) (h : Fin 32) : val_main_v6 (F := Ideal) x1 (ix2 t h) = clean (x1 (ix2 h t)) := by
  rw [val_main_v6_apply, val_main_v5_apply, val_main_v2_apply, val_main_v4_apply, val_main_call0_v0_apply, prefixT_at]
  rfl

theorem suffix_clean_at (t : Fin 16384) (h : Fin 32) : val_main_v11 (F := Ideal) x3 (ix2 t h) = clean (x3 (ix2 h t)) := by
  rw [val_main_v11_apply, val_main_v10_apply, val_main_v7_apply, val_main_v9_apply, val_main_call2_v0_apply, suffixT_at]
  rfl

theorem top_at (t : Fin 16384) (h : Fin 32) :
    val_main_v12 (F := Ideal) x1 x3 (ix2 t h) = top (x1 (ix2 h t)) (x3 (ix2 h t)) := by
  rw [val_main_v12_apply, prefix_clean_at, suffix_clean_at]
  rfl

theorem prefix_weight_at (t : Fin 16384) (h : Fin 32) :
    val_main_v14 (F := Ideal) x1 x3 (ix2 t h) = weight (x1 (ix2 h t)) (x1 (ix2 h t)) (x3 (ix2 h t)) := by
  rw [val_main_v14_apply, val_main_v13_apply, prefix_clean_at, top_at]
  rfl

theorem suffix_weight_at (t : Fin 16384) (h : Fin 32) :
    val_main_v16 (F := Ideal) x1 x3 (ix2 t h) = weight (x3 (ix2 h t)) (x1 (ix2 h t)) (x3 (ix2 h t)) := by
  rw [val_main_v16_apply, val_main_v15_apply, suffix_clean_at, top_at]
  rfl

theorem norm_at (t : Fin 16384) (h : Fin 32) :
    val_main_v17 (F := Ideal) x1 x3 (ix2 t h) = norm (x1 (ix2 h t)) (x3 (ix2 h t)) := by
  rw [val_main_v17_apply, prefix_weight_at, suffix_weight_at]
  rfl

theorem lse_at (t : Fin 16384) (h : Fin 32) :
    val_main_v19 (F := Ideal) x1 x3 (ix2 t h) = lse (x1 (ix2 h t)) (x3 (ix2 h t)) := by
  rw [val_main_v19_apply, val_main_v18_apply, norm_at, top_at]
  rfl

/-- The reference's log-sum-exp result is the merged log-sum-exp array. -/
theorem lse_result : val_main_v20 (F := Ideal) x1 x3 = mergedLse x1 x3 := by
  funext i
  obtain ⟨h, t, rfl⟩ : ∃ (h : Fin 32) (t : Fin 16384), i = ix2 h t := ⟨i 0, i 1, eq_ix2 i⟩
  rw [val_main_v20_apply,
    show idx_main_v20 (ix2 h t) = ix2 t h from funext fun a => by match a with | ⟨0, _⟩ => rfl | ⟨1, _⟩ => rfl,
    lse_at]
  rfl

theorem prefix_share_at (t : Fin 16384) (h : Fin 32) :
    val_main_v21 (F := Ideal) x1 x3 (ix2 t h) = shareQuot (x1 (ix2 h t)) (x1 (ix2 h t)) (x3 (ix2 h t)) := by
  rw [val_main_v21_apply, prefix_weight_at, norm_at]
  rfl

theorem suffix_share_at (t : Fin 16384) (h : Fin 32) :
    val_main_v23 (F := Ideal) x1 x3 (ix2 t h) = shareQuot (x3 (ix2 h t)) (x1 (ix2 h t)) (x3 (ix2 h t)) := by
  rw [val_main_v23_apply, suffix_weight_at, norm_at]
  rfl

/-- The prefix share spread along the lanes, at (token, head, lane). -/
theorem prefix_spread_at (t : Fin 16384) (h : Fin 32) (d : Fin 128) :
    val_main_v25 (F := Ideal) x1 x3 (ix3 t h d) = shareQuot (x1 (ix2 h t)) (x1 (ix2 h t)) (x3 (ix2 h t)) := by
  rw [val_main_v25_apply, val_main_v22_apply,
    show idx_main_v22 (idx_main_v25 (ix3 t h d)) = ix2 t h from funext fun a => by match a with | ⟨0, _⟩ => rfl | ⟨1, _⟩ => rfl,
    prefix_share_at]

/-- The suffix share spread along the lanes, at (token, head, lane). -/
theorem suffix_spread_at (t : Fin 16384) (h : Fin 32) (d : Fin 128) :
    val_main_v27 (F := Ideal) x1 x3 (ix3 t h d) = shareQuot (x3 (ix2 h t)) (x1 (ix2 h t)) (x3 (ix2 h t)) := by
  rw [val_main_v27_apply, val_main_v24_apply,
    show idx_main_v24 (idx_main_v27 (ix3 t h d)) = ix2 t h from funext fun a => by match a with | ⟨0, _⟩ => rfl | ⟨1, _⟩ => rfl,
    suffix_share_at]

/-- The reference's output result is the merged output array, the share spelt as a quotient. -/
theorem out_result (x0 x2 : (⟨S16384x32x128, .f32⟩ : BufTy).Contents (Elt Ideal)) :
    val_main_v29 (F := Ideal) x0 x1 x2 x3 = merged shareQuot x0 x1 x2 x3 := by
  funext i
  obtain ⟨t, h, d, rfl⟩ : ∃ (t : Fin 16384) (h : Fin 32) (d : Fin 128), i = ix3 t h d := ⟨i 0, i 1, i 2, eq_ix3 i⟩
  rw [val_main_v29_apply, val_main_v26_apply, val_main_v28_apply, prefix_spread_at, suffix_spread_at]
  rfl

end Cert.ReferenceIdeal.RefValue

end
-- ==== Proof.Finite.lean ====
import proofs.«131252_j3470333575378_2_alg».proof.Pre_finite_inputs
import proofs.«131252_j3470333575378_2_alg».proof.Proof.Gen.Pre_finite_inputs
import proofs.«131252_j3470333575378_2_alg».proof.Proof.LseMerge
import Idealize.ShloMosaic.Lib.ReduceAll
import Idealize.ShloMosaic.Lib.ValueIdx

noncomputable section

open Idealize.ShloMosaic

/-! # The precondition gives real log-sum-exps

The precondition is the conjunction, over the four argument arrays, of "every entry's absolute value is below +∞". An
extended real whose absolute value is below +∞ is a real number, so under the precondition every entry of the two
log-sum-exp arrays is real. (Nothing is needed of the two partial-output arrays.) -/

namespace Cert.FiniteInputs

open Cert.Pre_finite_inputs Cert.LseMerge

instance : Subsingleton S_.Idx := ⟨fun a b => funext fun d => d.elim0⟩

/-- An extended real whose absolute value compares below the word +∞ is a real number. -/
theorem real_of_abs_lt (x : Ideal .f32)
    (h : FloatOps.cmpf (F := Ideal) (φ := .f32) .olt (FloatOps.hostAbsf x) (FloatOps.ofBits .f32 0x7F800000#32) = 1#1) :
    ∃ r : ℝ, x = (r : EReal) := by
  have h' : Ideal.cmp .olt (max (x : EReal) (-(x : EReal))) (Ideal.ofBits .f32 0x7F800000#32) = 1#1 := h
  rw [ofBits_posInf] at h'
  have hb : ∀ b : Bool, BitVec.ofBool b = 1#1 → b = true := by decide
  have hlt : max (x : EReal) (-(x : EReal)) < ⊤ := of_decide_eq_true (hb _ h')
  induction x using EReal.rec with
  | bot => exact absurd hlt (by simp)
  | coe r => exact ⟨r, rfl⟩
  | top => exact absurd hlt (by simp)

/-- Under the precondition every entry of the two log-sum-exp arrays is a real number. -/
theorem lse_real (x0 : FVec Ideal S16384x32x128 .f32) (x1 : FVec Ideal S32x16384 .f32)
    (x2 : FVec Ideal S16384x32x128 .f32) (x3 : FVec Ideal S32x16384 .f32)
    (h : fn (F := Ideal) x0 x1 x2 x3 = fun _ => 1#1) :
    (∀ i, ∃ r : ℝ, x1 i = (r : EReal)) ∧ (∀ i, ∃ r : ℝ, x3 i = (r : EReal)) := by
  have h0 := congrFun h ValueIdx.ix0
  dsimp only [fn, fn_part1] at h0
  obtain ⟨h13, h17⟩ := IntOp.andi_eq_one.1 h0
  obtain ⟨h8, -⟩ := IntOp.andi_eq_one.1 h13
  obtain ⟨-, h7⟩ := IntOp.andi_eq_one.1 h8
  exact ⟨fun i => real_of_abs_lt (x1 i) (Host.reduce_andi_all _ _ _ _ ValueIdx.ix0 h7 i),
    fun i => real_of_abs_lt (x3 i) (Host.reduce_andi_all _ _ _ _ ValueIdx.ix0 h17 i)⟩

end Cert.FiniteInputs

end
-- ==== Proof.lean ====
/-
  The certificate of the merge of two attention partial results by their log-sum-exps.

  For every (token, head) the prefix and the suffix part come with log-sum-exps p and s; an infinite +∞ is replaced by
  −∞; with M = max p s the parts weigh exp (p − M) and exp (s − M), and their sum N is the normaliser. The merged
  log-sum-exp is log N + M, and the merged output is prefix · (prefix weight / N) + suffix · (suffix weight / N), the same
  share along all 128 lanes.

  The kernel works on 64 blocks of 256 tokens. In each it takes the 256 columns of the two [32, 16384] log-sum-exp arrays,
  computes the shares there as weight × (1 / N), transposes them to (token, head) and spreads them along the lanes. The
  reference transposes the log-sum-exp arrays first and divides the weights by N. Index by index both compute the same
  scalar function of the same four entries, except for weight × (1 / N) against weight / N: these agree because under
  the precondition p and s are real, so N is a positive real (were both −∞, N would be 0 and the two would differ). The
  merged log-sum-exps are the same function outright. The ideal pass rewrote nothing, so the preservation claim is
  trivial; the three frames are the generated frame runs and the reference's run with its results dropped.
-/
import proofs.«131252_j3470333575378_2_alg».proof.Defs
import proofs.«131252_j3470333575378_2_alg».proof.Proof.Gen.Kernel
import proofs.«131252_j3470333575378_2_alg».proof.Proof.Gen.Kernel.Frame
import proofs.«131252_j3470333575378_2_alg».proof.Proof.Gen.KernelIdeal
import proofs.«131252_j3470333575378_2_alg».proof.Proof.Gen.KernelIdeal.Frame
import proofs.«131252_j3470333575378_2_alg».proof.Proof.Gen.KernelIdeal.Value
import proofs.«131252_j3470333575378_2_alg».proof.Proof.Gen.ReferenceIdeal
import proofs.«131252_j3470333575378_2_alg».proof.Proof.Gen.ReferenceIdeal.Run
import proofs.«131252_j3470333575378_2_alg».proof.Proof.Gen.ReferenceIdeal.Read
import proofs.«131252_j3470333575378_2_alg».proof.Proof.Gen.Pre_finite_inputs
import proofs.«131252_j3470333575378_2_alg».proof.Proof.LseMerge
import proofs.«131252_j3470333575378_2_alg».proof.Proof.KernelValue
import proofs.«131252_j3470333575378_2_alg».proof.Proof.RefValue
import proofs.«131252_j3470333575378_2_alg».proof.Proof.Finite

noncomputable section

namespace Cert.Proof

open Idealize.ShloMosaic Idealize.ShloMosaic.TcCoe Idealize.SL.Sem Cert.LseMerge

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The kernel's run under the precondition: the log-sum-exps are real, so its output, computed with
    weight × (1 / normaliser), is the merged output with weight / normaliser. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v0_0)
          = merged shareQuot (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v0_1)
          = mergedLse (m ((c.tc : Thread Cert.KernelIdeal.nD Cert.KernelIdeal.τ).loc Cert.KernelIdeal.main_arg1))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  (θ_run Cert.KernelIdeal.defs _ _).mono (fun r h c => by
      obtain ⟨hp, hs⟩ := Cert.FiniteInputs.lse_real _ _ _ _ (hpre c)
      exact ⟨(h c).1.trans (merged_recip_eq_quot _ _ _ _ hp hs), (h c).2⟩)
    (Cert.KernelIdeal.Final.run m ρ)

/-- Both programs end with the merged output and the merged log-sum-exp of arguments that agree. -/
theorem algebraic : Cert.algebraic_KernelIdeal_ReferenceIdeal := by
  intro m ρ m' ρ' hpre hagree
  refine ⟨_, _, kernel_run m ρ hpre, ?_⟩
  refine (θ_run Cert.ReferenceIdeal.defs _ _).mono (fun r h c => ⟨?_, ?_, (h c).2.2⟩)
    (Cert.ReferenceIdeal.Value.run (F := Ideal) m' ρ')
  · rw [(h c).1, Cert.ReferenceIdeal.Read.val_main_v29_eq, Cert.ReferenceIdeal.RefValue.out_result,
      (hagree c).1, (hagree c).2.1, (hagree c).2.2.1, (hagree c).2.2.2]
  · rw [(h c).2.1, Cert.ReferenceIdeal.Read.val_main_v20_eq, Cert.ReferenceIdeal.RefValue.lse_result,
      (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
